-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S8192x2048 : Shape := ⟨2, ![8192, 2048]⟩
abbrev S8192 : Shape := ⟨1, ![8192]⟩
abbrev S1x8192 : Shape := ⟨2, ![1, 8192]⟩
abbrev S8192x8192 : Shape := ⟨2, ![8192, 8192]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S1x8192, .f32⟩
  | .hbm, ⟨8, _⟩ => ⟨S8192x8192, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x8192.size a
  hwx0_3 : ∀ i : grid0.Coords, EltTy.bits .f32 = 32 ∨ (Rect.block (s := S8192x8192) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_call0_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Spec.lean ====
/-
  The masked linear layer as one function of its four argument arrays.

  For activations `x` [8192, 2048], weights `w` [8192, 2048], a bias `b` [8192] and a mask `mk` [8192, 2048],
  the entry (r, c) of the [8192, 8192] result is

      ∑ k < 2048, x[r, k] · (mk[c, k] · w[c, k])  +  b[c]

  — row `r` of the activations against row `c` of the masked weights (the product with the TRANSPOSE of `mk ∘ w`),
  plus the bias of output feature `c`. The mask multiplies the weight first, then the activation multiplies the
  product, on both sides of the certificate, so no reassociation of the three factors is needed; everything is
  stated on the extended reals, where sums and products are total.
-/
import Idealize.ShloMosaic.PureOps.Ideal
import Idealize.ShloMosaic.Lib.ValueIdx

noncomputable section

namespace Cert.MaskedLinear

open Idealize.ShloMosaic Idealize.ShloMosaic.ValueIdx

/-- Entry (r, c) of the result: `∑ k, x[r, k] · (mk[c, k] · w[c, k]) + b[c]`. -/
def G (x w : FVec Ideal ⟨2, ![8192, 2048]⟩ .f32) (b : FVec Ideal ⟨1, ![8192]⟩ .f32)
    (mk : FVec Ideal ⟨2, ![8192, 2048]⟩ .f32) : FVec Ideal ⟨2, ![8192, 8192]⟩ .f32 :=
  fun i => (∑ k : Fin 2048, x (ix2 (i 0) k) * (mk (ix2 (i 1) k) * w (ix2 (i 1) k))) + b (ix1 (i 1))

/-- The same entry at explicit coordinates. -/
theorem G_apply (x w : FVec Ideal ⟨2, ![8192, 2048]⟩ .f32) (b : FVec Ideal ⟨1, ![8192]⟩ .f32)
    (mk : FVec Ideal ⟨2, ![8192, 2048]⟩ .f32) (r c : Fin 8192) :
    G x w b mk (ix2 r c) = (∑ k : Fin 2048, x (ix2 r k) * (mk (ix2 c k) * w (ix2 c k))) + b (ix1 c) := rfl

end Cert.MaskedLinear

end
-- ==== Proof.RefIsSpec.lean ====
/-
  The reference computes the specification.

  The reference multiplies mask and weight entrywise, transposes the product to [2048, 8192], contracts the
  activations' second axis with the transposed product's first, broadcasts the bias along the rows and adds. Read
  at an entry (r, c): the contraction is a sum over `k` of `x[r, k]` times the transposed product at (k, c), which is
  the product at (c, k); the broadcast bias at (r, c) is `b[c]`. That is `MaskedLinear.G` term by term — only
  index bookkeeping, no algebra.
-/
import proofs.«180215_j47304769798210_2_alg».proof.Proof.Gen.ReferenceIdeal.Read
import proofs.«180215_j47304769798210_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The activations' index in the contraction at output entry `i`, term `k`: (row of `i`, k). -/
theorem lidx_eq (i : S8192x8192.Idx) (k : Fin 2048) : lidx_main_v2 i k = ix2 (i 0) k :=
  funext fun a => Fin.ext (by match a with | ⟨0, _⟩ => rfl | ⟨1, _⟩ => rfl)

/-- The masked weights' index there, read through the transpose: (column of `i`, k). -/
theorem ridx_eq (i : S8192x8192.Idx) (k : Fin 2048) : idx_main_v1 (ridx_main_v2 i k) = ix2 (i 1) k :=
  funext fun a => Fin.ext (by match a with | ⟨0, _⟩ => rfl | ⟨1, _⟩ => rfl)

/-- The bias's index under the two broadcasts: the column of `i`. -/
theorem bidx_eq (i : S8192x8192.Idx) : idx_main_v3 (idx_main_v4 i) = ix1 (i 1) :=
  funext fun a => Fin.ext (by match a with | ⟨0, _⟩ => rfl)

/-- The reference's result, as a function of the four argument arrays, is the specification. -/
theorem ref_eq (x0 x1 : FVec Ideal S8192x2048 .f32) (x2 : FVec Ideal S8192 .f32) (x3 : FVec Ideal S8192x2048 .f32) :
    val_main_v5 (F := Ideal) x0 x1 x2 x3 = Cert.MaskedLinear.G x0 x1 x2 x3 := by
  funext i
  rw [val_main_v5_apply, val_main_v2_apply, val_main_v4_apply, val_main_v3_apply]
  simp only [val_main_v1_apply, val_main_v0_apply, lidx_eq, ridx_eq, bidx_eq]
  rfl

end Cert.ReferenceIdeal.RefValue

end
-- ==== Proof.Payload.lean ====
/-
  What the kernel body stores, read at one entry of the output block.

  The body loads an activation block `a` [512, 2048], a masked-weight block `b` [1024, 2048] and a bias row
  `v` [1, 1024], contracts the two blocks' second axes on the matrix unit into a zero accumulator, broadcasts the
  bias row over the 512 rows and adds. At entry (p, q) of the [512, 1024] block that is

      ∑ k < 2048, a[p, k] · b[q, k]  +  v[0, q].

  On the extended reals the matrix unit's product into a zero accumulator is the plain sum (`0 + s = s` holds at the
  infinities too), the contraction index of a one-axis contraction is its one coordinate, and the two same-shape
  casts are the identity.
-/
import proofs.«180215_j47304769798210_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The activation block's row coordinate in the contraction is the output entry's row. -/
theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide),
    dif_pos (show (0 : Fin S512x2048.rank) ∈ dot_S512x2048_S1024x2048_S512x1024_1_1_0_0_n_n.lhsNonContracting by decide)]
  rfl

/-- Its column coordinate is the contraction position. -/
theorem lhs_col (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q

/-- The masked-weight block's row coordinate is the output entry's COLUMN (the weights enter transposed). -/
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide),
    dif_pos (show (0 : Fin S1024x2048.rank) ∈ dot_S512x2048_S1024x2048_S512x1024_1_1_0_0_n_n.rhsNonContracting by decide)]
  rfl

/-- Its column coordinate is the contraction position. -/
theorem rhs_col (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The matrix unit's product of the two blocks into a zero accumulator, at entry (p, q): the sum over the shared
    axis of row `p` of the first against row `q` of the second. -/
theorem mxu_entry (a : FVec Ideal S512x2048 .bf16) (b : FVec Ideal S1024x2048 .bf16) (p : Fin 512) (q : Fin 1024) :
    matmul dot_S512x2048_S1024x2048_S512x1024_1_1_0_0_n_n none a b (constant (F := Ideal) S512x1024 .f32 0x00000000#32) (ix2 p q)
      = ∑ k : Fin 2048, a (ix2 p k) * b (ix2 q k) := by
  simp only [matmul]
  rw [Ideal.matmul_constant_zero_apply,
    ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q)
      ((contrEquiv1 dot_S512x2048_S1024x2048_S512x1024_1_1_0_0_n_n 2048 rfl rfl).symm k) = ix2 p k :=
    funext fun ax => Fin.ext (by
      match ax with
      | ⟨0, _⟩ => exact lhs_row _ _
      | ⟨1, _⟩ => exact (lhs_col _ _).trans hk)
  have er : dot_S512x2048_S1024x2048_S512x1024_1_1_0_0_n_n.rhsIdx (ix2 p q)
      ((contrEquiv1 dot_S512x2048_S1024x2048_S512x1024_1_1_0_0_n_n 2048 rfl rfl).symm k) = ix2 q k :=
    funext fun ax => Fin.ext (by
      match ax with
      | ⟨0, _⟩ => exact rhs_row _ _
      | ⟨1, _⟩ => exact (rhs_col _ _).trans hk)
  rw [el, er]

/-- THE STORED VALUE at entry (p, q) of the block: the contraction of the two loaded blocks plus the bias row's entry. -/
theorem payload_entry (a : FVec Ideal S512x2048 .bf16) (b : FVec Ideal S1024x2048 .bf16) (v : FVec Ideal S1x1024 .f32)
    (p : Fin 512) (q : Fin 1024) :
    k0_pay1 (F := Ideal) a b v (ix2 p q) = (∑ k : Fin 2048, a (ix2 p k) * b (ix2 q k)) + v (ix2 (0 : Fin 1) q) := by
  unfold k0_pay1
  simp only [shapeCast_self]
  rw [addf_apply, mxu_entry, broadcastTo_1b_ab_apply]

end Cert.KernelIdeal.BlockValue

end
-- ==== Proof.Staged.lean ====
/-
  The three arrays the kernel's windows stage, as the region finds them.

  Before the kernel is launched the host rounds the activations to bf16, multiplies mask and weight entrywise and
  rounds the product to bf16, and reshapes the bias [8192] to a row [1, 8192]. On the extended reals a change of
  float format is the identity, so at an index the staged activations are the activations, the staged weights are
  `mask · weight`, and the staged bias row at (0, j) is `bias[j]`.
-/
import proofs.«180215_j47304769798210_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The four argument arrays on core `c`, as arrays of extended reals: activations, weights, bias, mask. -/
abbrev actArg (c : Dev nD) : FVec Ideal S8192x2048 .f32 := m ((c : Thread nD τ).loc main_arg0)
abbrev wgtArg (c : Dev nD) : FVec Ideal S8192x2048 .f32 := m ((c : Thread nD τ).loc main_arg1)
abbrev biasArg (c : Dev nD) : FVec Ideal S8192 .f32 := m ((c : Thread nD τ).loc main_arg2)
abbrev maskArg (c : Dev nD) : FVec Ideal S8192x2048 .f32 := m ((c : Thread nD τ).loc main_arg3)

/-- The staged activations are the activations, rounded. -/
theorem act_array (c : Dev nD) :
    (V m c main_call0_v2 : S8192x2048.Idx → EReal)
      = (truncf (F := Ideal) .bf16 (actArg m c) bitsLt_bf16_f32 : FVec Ideal S8192x2048 .bf16) := by
  dsimp only [Gen.V, Gen.hostOps0]; after_results; rfl

/-- The staged weights are the entrywise product of mask and weight, rounded. -/
theorem wgt_array (c : Dev nD) :
    (V m c main_call0_v1 : S8192x2048.Idx → EReal)
      = (truncf (F := Ideal) .bf16 (mulf (maskArg m c) (wgtArg m c)) bitsLt_bf16_f32 : FVec Ideal S8192x2048 .bf16) := by
  dsimp only [Gen.V, Gen.hostOps0]; after_results; rfl

/-- The staged bias row is the bias, reshaped to one row. -/
theorem bias_array (c : Dev nD) :
    (V m c main_call0_v3 : S1x8192.Idx → EReal)
      = shapeCast S1x8192 (biasArg m c) shapeCasts_S8192_S1x8192 := by
  dsimp only [Gen.V, Gen.hostOps0]; after_results; rfl

/-- At an index the staged activations are the activations (rounding is the identity on the extended reals). -/
theorem act_at (c : Dev nD) (r : Fin 8192) (k : Fin 2048) :
    (V m c main_call0_v2 : S8192x2048.Idx → EReal) (ix2 r k) = actArg m c (ix2 r k) := by
  rw [act_array]; rfl

/-- At an index the staged weights are `mask · weight`. -/
theorem wgt_at (c : Dev nD) (r : Fin 8192) (k : Fin 2048) :
    (V m c main_call0_v1 : S8192x2048.Idx → EReal) (ix2 r k)
      = maskArg m c (ix2 r k) * wgtArg m c (ix2 r k) := by
  rw [wgt_array]; rfl

/-- The staged bias row at (0, j) is `bias[j]`. -/
theorem bias_at (c : Dev nD) (u : Fin 1) (j : Fin 8192) :
    (V m c main_call0_v3 : S1x8192.Idx → EReal) (ix2 u j) = biasArg m c (ix1 j) := by
  rw [bias_array]
  exact shapeCast_a_1a_apply _ _ u j

end Cert.KernelIdeal.Staged

end
-- ==== Proof.BlockReads.lean ====
/-
  Each input window's block at a grid point, read at an entry.

  The grid has 8 × 16 points; at a point the output block is block (R, C) of the [8192, 8192] result, 512 rows by
  1024 columns (R < 16, C < 8). The activation window moves with the output's ROW block and spans the whole
  contraction axis; the masked-weight window and the bias window move with the output's COLUMN block. An element
  of a block sits, along each axis, at block index × block size + its coordinate inside the block. So:

    activation block at (p, k)   = x[512·R + p, k]
    weight block at (q, k)       = mask[1024·C + q, k] · weight[1024·C + q, k]
    bias block at (0, q)         = bias[1024·C + q]
-/
import proofs.«180215_j47304769798210_2_alg».proof.Proof.Gen.KernelIdeal.Frame
import proofs.«180215_j47304769798210_2_alg».proof.Proof.Staged

noncomputable section

namespace Cert.KernelIdeal.BlockReads

open Cert.KernelIdeal Cert.KernelIdeal.Gen Idealize.ShloMosaic Idealize.ShloMosaic.TcCoe Idealize.SL.Sem
open Idealize.ShloMosaic.ValueIdx Cert.KernelIdeal.Staged

variable (m : (ℓ : Loc nD τ sig) → Buf (Elt Ideal) ℓ)

/-- The printed index maps, decided over the 128 grid points: the activation window follows the output's row
    block, the weight and bias windows its column block, every other block index is zero, and the output's block
    indices stay below 16 and 8. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every (row block, column block) pair is some grid point's output block. -/
theorem idx_onto : ∀ (R : Fin 16) (C : Fin 8), ∃ t : Fin cfg0.N, win0_3.index t = ![R.val, C.val] :=
  (by decide +kernel : ∀ (R : Fin 16) (C : Fin 8), ∃ t : Fin grid0.N, win0_3.index t = ![R.val, C.val])

/-- The activation block at (p, k) is the activations at (512·R + p, k). -/
theorem act_blk (c : Dev nD) (t : Fin cfg0.N) (p : Fin 512) (k : Fin 2048) (r : Fin 8192)
    (hr : r.val = win0_3.index t (0 : Fin 2) * 512 + p.val) :
    (iblk m c 0 t : Vec Ideal S512x2048 .bf16) (ix2 p k) = actArg m c (ix2 r k) := by
  obtain ⟨e0, e1, -, -, -, -, -, -⟩ := idx_facts t
  show (V m c main_call0_v2 : S8192x2048.Idx → EReal) (((cfg0.win 0).blk t).view.emb (ix2 p k)) = _
  have e : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 2048 + 1 * k.val = k.val; omega
  rw [e]
  exact Staged.act_at m c r k

/-- The weight block at (q, k) is `mask · weight` at (1024·C + q, k). -/
theorem wgt_blk (c : Dev nD) (t : Fin cfg0.N) (q : Fin 1024) (k : Fin 2048) (s : Fin 8192)
    (hs : s.val = win0_3.index t (1 : Fin 2) * 1024 + q.val) :
    (iblk m c 1 t : Vec Ideal S1024x2048 .bf16) (ix2 q k)
      = maskArg m c (ix2 s k) * wgtArg m c (ix2 s k) := by
  obtain ⟨-, -, e2, e3, -, -, -, -⟩ := idx_facts t
  show (V m c main_call0_v1 : S8192x2048.Idx → EReal) (((cfg0.win 1).blk t).view.emb (ix2 q k)) = _
  have e : ((cfg0.win 1).blk t).view.emb (ix2 q k) = ix2 s k := by
    funext a; apply Fin.ext
    match a with
    | ⟨0, _⟩ => show win0_1.index t (0 : Fin 2) * 1024 + 1 * q.val = s.val; omega
    | ⟨1, _⟩ => show win0_1.index t (1 : Fin 2) * 2048 + 1 * k.val = k.val; omega
  rw [e]
  exact Staged.wgt_at m c s k

/-- The bias block at (0, q) is the bias at 1024·C + q. -/
theorem bias_blk (c : Dev nD) (t : Fin cfg0.N) (q : Fin 1024) (s : Fin 8192)
    (hs : s.val = win0_3.index t (1 : Fin 2) * 1024 + q.val) :
    (iblk m c 2 t : Vec Ideal S1x1024 .f32) (ix2 (0 : Fin 1) q) = biasArg m c (ix1 s) := by
  obtain ⟨-, -, -, -, e4, e5, -, -⟩ := idx_facts t
  show (V m c main_call0_v3 : S1x8192.Idx → EReal) (((cfg0.win 2).blk t).view.emb (ix2 (0 : Fin 1) q)) = _
  have e : ((cfg0.win 2).blk t).view.emb (ix2 (0 : Fin 1) q) = ix2 (0 : Fin 1) s := by
    funext a; apply Fin.ext
    match a with
    | ⟨0, _⟩ => show win0_2.index t (0 : Fin 2) * 1 + 1 * 0 = 0; omega
    | ⟨1, _⟩ => show win0_2.index t (1 : Fin 2) * 1024 + 1 * q.val = s.val; omega
  rw [e]
  exact Staged.bias_at m c 0 s

end Cert.KernelIdeal.BlockReads

end
-- ==== Proof.Whole.lean ====
/-
  From blocks to the whole result array.

  At grid point `t` the kernel writes back, into block (R, C) of the result, its body's stored value: at entry (p, q)
  the contraction of the activation block's row `p` with the weight block's row `q`, plus the bias block's entry `q`.
  Read through the blocks, these are the activations' row 512·R + p, the masked weights' row 1024·C + q and the bias
  at 1024·C + q — so the block written back is block (R, C) of the specification `MaskedLinear.G` of the argument
  arrays. The 16 × 8 output blocks tile the [8192, 8192] array (entry (r, c) lies in block (r / 512, c / 1024), and
  every such pair is some grid point's), so after the run the whole array is `G`.
-/
import proofs.«180215_j47304769798210_2_alg».proof.Proof.Gen.KernelIdeal.Value
import proofs.«180215_j47304769798210_2_alg».proof.Proof.Spec
import proofs.«180215_j47304769798210_2_alg».proof.Proof.Payload
import proofs.«180215_j47304769798210_2_alg».proof.Proof.BlockReads

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Staged

variable (m : (ℓ : Loc nD τ sig) → Buf (Elt Ideal) ℓ) (ρ : Dev nD → PrngReg)

/-- The specification at core `c`'s argument arrays. -/
abbrev spec (c : Dev nD) : FVec Ideal S8192x8192 .f32 :=
  Cert.MaskedLinear.G (actArg m c) (wgtArg m c) (biasArg m c) (maskArg m c)

theorem zero_off : (![0, 0] : Fin 2 → Nat) = fun _ => 0 := funext fun a => by fin_cases a <;> rfl

/-- WHAT POINT `t` WRITES BACK is block `t` of the specification of the argument arrays. -/
theorem flushed_eq (c : Dev nD) (t : Fin cfg0.N) :
    (dats m 0 c).flushed 3 t = ((cfg0.win 3).blk t).view.read (Elt Ideal) (spec m c) := by
  rw [Value.flushed3]
  unfold out0_3
  rw [View.canon_unit_zero zero_off]
  simp only [View.ld_unit_zero (S := S512x2048) zero_off, View.ld_unit_zero (S := S1024x2048) zero_off,
    View.ld_unit_zero (S := S1x1024) zero_off]
  funext j
  obtain ⟨p, q, rfl⟩ : ∃ (p : Fin 512) (q : Fin 1024), j = ix2 p q := ⟨j 0, j 1, eq_ix2 j⟩
  obtain ⟨-, -, -, -, -, -, b0, b1⟩ := BlockReads.idx_facts t
  have hr : win0_3.index t (0 : Fin 2) * 512 + p.val < 8192 := by have := p.isLt; omega
  have hs : win0_3.index t (1 : Fin 2) * 1024 + q.val < 8192 := by have := q.isLt; omega
  have e : ((cfg0.win 3).blk t).view.emb (ix2 p q)
      = ix2 (⟨win0_3.index t (0 : Fin 2) * 512 + p.val, hr⟩ : Fin 8192) (⟨win0_3.index t (1 : Fin 2) * 1024 + q.val, hs⟩ : Fin 8192) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show k0_pay1 (F := Ideal) (iblk m c 0 t) (iblk m c 1 t) (iblk m c 2 t) (ix2 p q)
    = spec m c (((cfg0.win 3).blk t).view.emb (ix2 p q))
  rw [e]
  refine (BlockValue.payload_entry (iblk m c 0 t) (iblk m c 1 t) (iblk m c 2 t) p q).trans ?_
  refine ((Cert.MaskedLinear.G_apply (actArg m c) (wgtArg m c) (biasArg m c) (maskArg m c) _ _).trans ?_).symm
  refine congrArg₂ (· + ·) (Finset.sum_congr rfl fun k _ => ?_) ?_
  · exact (congrArg₂ (fun a b : EReal => a * b) (BlockReads.act_blk m c t p k _ rfl) (BlockReads.wgt_blk m c t q k _ rfl)).symm
  · exact (BlockReads.bias_blk m c t q _ rfl).symm

/-- An index of the result is in point `t`'s block iff each coordinate is in the block's range on its axis. -/
theorem mem_blk (t : Fin cfg0.N) (i : S8192x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- Every entry of the result lies in some grid point's output block: entry (r, c) in block (r / 512, c / 1024). -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := BlockReads.idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- THE RESULT ARRAY after the run is the specification of the argument arrays. -/
theorem final (c : Dev nD) : (dats m 0 c).arrAt 3 cfg0.N = spec m c :=
  (dats m 0 c).arrAt_eq_of_cover 3 (spec m c) (fun t _ => flushed_eq m c t) cover

/-- The kernel's run: every weakly fair execution terminates with the result array at the specification of the
    argument arrays, and the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A masked linear layer: `out = x · (mask ∘ weight)ᵀ + bias` over x [8192, 2048], weight and mask [8192, 2048],
  bias [8192], result [8192, 8192].

  THE KERNEL rounds the activations and the entrywise product `mask ∘ weight` to bf16 on the host, reshapes the bias
  to a row, and on a grid of 8 column blocks × 16 row blocks computes, per point, a [512, 1024] block of the result:
  the matrix unit's contraction of a [512, 2048] activation block with a [1024, 2048] masked-weight block (both
  contracted along their second axis, into a zero accumulator), plus the bias row's block broadcast over the rows.
  THE REFERENCE multiplies mask and weight, transposes, contracts with the activations and adds the broadcast bias.

  On the extended reals — floats exact, a change of format the identity — both are, at entry (r, c),

      ∑ k < 2048, x[r, k] · (mask[c, k] · weight[c, k])  +  bias[c]      (`MaskedLinear.G`, Proof/Spec.lean)

  with the three factors grouped the same way on both sides; the accumulator's `0 + s = s` holds at the infinities
  too, so the equality needs no finiteness and the precondition is never opened. The reference's side is index
  bookkeeping over its generated run (Proof/RefIsSpec.lean). The kernel's side: its stored value at a block entry
  (Proof/Payload.lean), the staged arrays as the region finds them (Proof/Staged.lean), each block read at an entry
  (Proof/BlockReads.lean), and the 128 blocks tiling the result array (Proof/Whole.lean).

  The three frames are the generated ones (the reference's is its generated run with the result dropped); the kernel's
  idealization rewrote nothing, so `preserves` is trivial.
-/
import proofs.«180215_j47304769798210_2_alg».proof.Defs
import proofs.«180215_j47304769798210_2_alg».proof.Proof.Gen.Kernel
import proofs.«180215_j47304769798210_2_alg».proof.Proof.Gen.Kernel.Frame
import proofs.«180215_j47304769798210_2_alg».proof.Proof.Gen.KernelIdeal
import proofs.«180215_j47304769798210_2_alg».proof.Proof.Gen.KernelIdeal.Frame
import proofs.«180215_j47304769798210_2_alg».proof.Proof.Gen.KernelIdeal.Value
import proofs.«180215_j47304769798210_2_alg».proof.Proof.Gen.ReferenceIdeal
import proofs.«180215_j47304769798210_2_alg».proof.Proof.Gen.ReferenceIdeal.Run
import proofs.«180215_j47304769798210_2_alg».proof.Proof.Gen.ReferenceIdeal.Read
import proofs.«180215_j47304769798210_2_alg».proof.Proof.Gen.Pre_finite_inputs
import proofs.«180215_j47304769798210_2_alg».proof.Proof.RefIsSpec
import proofs.«180215_j47304769798210_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the kernel's result array ends at `MaskedLinear.G` of its arguments
    (Proof/Whole.lean) and the reference's at the same function of its own (Proof/RefIsSpec.lean): equal, entry by entry. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
